-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x8 : Shape := ⟨2, ![4000000, 8]⟩
abbrev S4000000x4 : Shape := ⟨2, ![4000000, 4]⟩
abbrev S6x8 : Shape := ⟨2, ![6, 8]⟩
abbrev S4x6 : Shape := ⟨2, ![4, 6]⟩
abbrev S6x4 : Shape := ⟨2, ![6, 4]⟩
abbrev S8x6 : Shape := ⟨2, ![8, 6]⟩
abbrev S_ : Shape := ⟨0, ![]⟩

class Facts : Prop where
  bcast_S_S4000000x8 : S_.BroadcastsInDim S4000000x8 (![] : Fin 0 → Fin S4000000x8.rank)
  reducesTo_S4000000x8_S_d0_1 : S4000000x8.ReducesTo [0, 1] S_
  h_S_ : 0 < S_.numel
  bcast_S_S4000000x4 : S_.BroadcastsInDim S4000000x4 (![] : Fin 0 → Fin S4000000x4.rank)
  reducesTo_S4000000x4_S_d0_1 : S4000000x4.ReducesTo [0, 1] S_
  bcast_S_S6x8 : S_.BroadcastsInDim S6x8 (![] : Fin 0 → Fin S6x8.rank)
  reducesTo_S6x8_S_d0_1 : S6x8.ReducesTo [0, 1] S_
  bcast_S_S4x6 : S_.BroadcastsInDim S4x6 (![] : Fin 0 → Fin S4x6.rank)
  reducesTo_S4x6_S_d0_1 : S4x6.ReducesTo [0, 1] S_
  bcast_S_S6x4 : S_.BroadcastsInDim S6x4 (![] : Fin 0 → Fin S6x4.rank)
  reducesTo_S6x4_S_d0_1 : S6x4.ReducesTo [0, 1] S_
  bcast_S_S8x6 : S_.BroadcastsInDim S8x6 (![] : Fin 0 → Fin S8x6.rank)
  reducesTo_S8x6_S_d0_1 : S8x6.ReducesTo [0, 1] S_

variable [Facts]

def fn_part1 {F : FTy → Type} [FloatOps F] (main_arg4 : FVec F S4x6 .f32) (main_arg5 : FVec F S6x4 .f32) (main_arg6 : FVec F S8x6 .f32) (main_v13 : IVec S_ 1) (main_v16 : IVec S4x6 1) : IVec S_ 1 :=
  let main_c_5 : IVec S_ 1 := constantI S_ 1 1#1
  let main_v17 : IVec S_ 1 := (fun x v => Host.reduce IntOp.andi x v reducesTo_S4x6_S_d0_1 h_S_) main_v16 main_c_5
  let main_v18 : IVec S_ 1 := andi main_v13 main_v17
  let main_v19 : FVec F S4x6 .f32 := Host.absf main_arg4
  let main_cst_6 : FVec F S_ .f32 := constant S_ .f32 0x7F800000#32
  let main_v20 : FVec F S4x6 .f32 := broadcastInDim S4x6 ![] bcast_S_S4x6 main_cst_6
  let main_v21 : IVec S4x6 1 := cmpf .olt main_v19 main_v20
  let main_c_7 : IVec S_ 1 := constantI S_ 1 1#1
  let main_v22 : IVec S_ 1 := (fun x v => Host.reduce IntOp.andi x v reducesTo_S4x6_S_d0_1 h_S_) main_v21 main_c_7
  let main_v23 : IVec S_ 1 := andi main_v18 main_v22
  let main_v24 : FVec F S6x4 .f32 := Host.absf main_arg5
  let main_cst_8 : FVec F S_ .f32 := constant S_ .f32 0x7F800000#32
  let main_v25 : FVec F S6x4 .f32 := broadcastInDim S6x4 ![] bcast_S_S6x4 main_cst_8
  let main_v26 : IVec S6x4 1 := cmpf .olt main_v24 main_v25
  let main_c_9 : IVec S_ 1 := constantI S_ 1 1#1
  let main_v27 : IVec S_ 1 := (fun x v => Host.reduce IntOp.andi x v reducesTo_S6x4_S_d0_1 h_S_) main_v26 main_c_9
  let main_v28 : IVec S_ 1 := andi main_v23 main_v27
  let main_v29 : FVec F S8x6 .f32 := Host.absf main_arg6
  let main_cst_10 : FVec F S_ .f32 := constant S_ .f32 0x7F800000#32
  let main_v30 : FVec F S8x6 .f32 := broadcastInDim S8x6 ![] bcast_S_S8x6 main_cst_10
  let main_v31 : IVec S8x6 1 := cmpf .olt main_v29 main_v30
  let main_c_11 : IVec S_ 1 := constantI S_ 1 1#1
  let main_v32 : IVec S_ 1 := (fun x v => Host.reduce IntOp.andi x v reducesTo_S8x6_S_d0_1 h_S_) main_v31 main_c_11
  let main_v33 : IVec S_ 1 := andi main_v28 main_v32
  main_v33

def fn {F : FTy → Type} [FloatOps F] (main_arg0 : FVec F S4000000x8 .f32) (main_arg1 : FVec F S4000000x4 .f32) (main_arg2 : FVec F S6x8 .f32) (main_arg3 : FVec F S4x6 .f32) (main_arg4 : FVec F S4x6 .f32) (main_arg5 : FVec F S6x4 .f32) (main_arg6 : FVec F S8x6 .f32) : IVec S_ 1 :=
  let main_v0 : FVec F S4000000x8 .f32 := Host.absf main_arg0
  let main_cst : FVec F S_ .f32 := constant S_ .f32 0x7F800000#32
  let main_v1 : FVec F S4000000x8 .f32 := broadcastInDim S4000000x8 ![] bcast_S_S4000000x8 main_cst
  let main_v2 : IVec S4000000x8 1 := cmpf .olt main_v0 main_v1
  let main_c : IVec S_ 1 := constantI S_ 1 1#1
  let main_v3 : IVec S_ 1 := (fun x v => Host.reduce IntOp.andi x v reducesTo_S4000000x8_S_d0_1 h_S_) main_v2 main_c
  let main_v4 : FVec F S4000000x4 .f32 := Host.absf main_arg1
  let main_cst_0 : FVec F S_ .f32 := constant S_ .f32 0x7F800000#32
  let main_v5 : FVec F S4000000x4 .f32 := broadcastInDim S4000000x4 ![] bcast_S_S4000000x4 main_cst_0
  let main_v6 : IVec S4000000x4 1 := cmpf .olt main_v4 main_v5
  let main_c_1 : IVec S_ 1 := constantI S_ 1 1#1
  let main_v7 : IVec S_ 1 := (fun x v => Host.reduce IntOp.andi x v reducesTo_S4000000x4_S_d0_1 h_S_) main_v6 main_c_1
  let main_v8 : IVec S_ 1 := andi main_v3 main_v7
  let main_v9 : FVec F S6x8 .f32 := Host.absf main_arg2
  let main_cst_2 : FVec F S_ .f32 := constant S_ .f32 0x7F800000#32
  let main_v10 : FVec F S6x8 .f32 := broadcastInDim S6x8 ![] bcast_S_S6x8 main_cst_2
  let main_v11 : IVec S6x8 1 := cmpf .olt main_v9 main_v10
  let main_c_3 : IVec S_ 1 := constantI S_ 1 1#1
  let main_v12 : IVec S_ 1 := (fun x v => Host.reduce IntOp.andi x v reducesTo_S6x8_S_d0_1 h_S_) main_v11 main_c_3
  let main_v13 : IVec S_ 1 := andi main_v8 main_v12
  let main_v14 : FVec F S4x6 .f32 := Host.absf main_arg3
  let main_cst_4 : FVec F S_ .f32 := constant S_ .f32 0x7F800000#32
  let main_v15 : FVec F S4x6 .f32 := broadcastInDim S4x6 ![] bcast_S_S4x6 main_cst_4
  let main_v16 : IVec S4x6 1 := cmpf .olt main_v14 main_v15
  fn_part1 (F := F) main_arg4 main_arg5 main_arg6 main_v13 main_v16
-- ==== Kernel.lean ====
abbrev S4000000x8 : Shape := ⟨2, ![4000000, 8]⟩
abbrev S4000000x4 : Shape := ⟨2, ![4000000, 4]⟩
abbrev S6x8 : Shape := ⟨2, ![6, 8]⟩
abbrev S4x6 : Shape := ⟨2, ![4, 6]⟩
abbrev S6x4 : Shape := ⟨2, ![6, 4]⟩
abbrev S8x6 : Shape := ⟨2, ![8, 6]⟩
abbrev S5000x8 : Shape := ⟨2, ![5000, 8]⟩
abbrev S5000x4 : Shape := ⟨2, ![5000, 4]⟩
abbrev S5000x6 : Shape := ⟨2, ![5000, 6]⟩

abbrev nBuf : Space → Nat
  | .hbm => 10
  | .vmem => 15
  | .smem => 0
  | _ => 0

abbrev bufTy : (tb : Table) → Fin (tcTables nBuf tb) → BufTy
  | .hbm, ⟨0, _⟩ => ⟨S4000000x8, .f32⟩
  | .hbm, ⟨1, _⟩ => ⟨S4000000x4, .f32⟩
  | .hbm, ⟨2, _⟩ => ⟨S6x8, .f32⟩
  | .hbm, ⟨3, _⟩ => ⟨S4x6, .f32⟩
  | .hbm, ⟨4, _⟩ => ⟨S4x6, .f32⟩
  | .hbm, ⟨5, _⟩ => ⟨S6x4, .f32⟩
  | .hbm, ⟨6, _⟩ => ⟨S8x6, .f32⟩
  | .hbm, ⟨7, _⟩ => ⟨S4000000x8, .f32⟩
  | .hbm, ⟨8, _⟩ => ⟨S4000000x4, .f32⟩
  | .hbm, ⟨9, _⟩ => ⟨S4000000x4, .f32⟩
  | .local _ .vmem, ⟨0, _⟩ => ⟨S5000x8, .f32⟩
  | .local _ .vmem, ⟨1, _⟩ => ⟨S5000x8, .f32⟩
  | .local _ .vmem, ⟨2, _⟩ => ⟨S5000x4, .f32⟩
  | .local _ .vmem, ⟨3, _⟩ => ⟨S5000x4, .f32⟩
  | .local _ .vmem, ⟨4, _⟩ => ⟨S6x8, .f32⟩
  | .local _ .vmem, ⟨5, _⟩ => ⟨S4x6, .f32⟩
  | .local _ .vmem, ⟨6, _⟩ => ⟨S4x6, .f32⟩
  | .local _ .vmem, ⟨7, _⟩ => ⟨S6x4, .f32⟩
  | .local _ .vmem, ⟨8, _⟩ => ⟨S8x6, .f32⟩
  | .local _ .vmem, ⟨9, _⟩ => ⟨S5000x8, .f32⟩
  | .local _ .vmem, ⟨10, _⟩ => ⟨S5000x8, .f32⟩
  | .local _ .vmem, ⟨11, _⟩ => ⟨S5000x4, .f32⟩
  | .local _ .vmem, ⟨12, _⟩ => ⟨S5000x4, .f32⟩
  | .local _ .vmem, ⟨13, _⟩ => ⟨S5000x4, .f32⟩
  | .local _ .vmem, ⟨14, _⟩ => ⟨S5000x4, .f32⟩
  | _, _ => ⟨S4000000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![800], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S5000x8_S5000x8_0_0 : ∀ a, (![0, 0] : Fin 2 → Nat) a + S5000x8.size a ≤ S5000x8.size a
  h_S5000x8 : 0 < S5000x8.numel
  inb_S5000x4_S5000x4_0_0 : ∀ a, (![0, 0] : Fin 2 → Nat) a + S5000x4.size a ≤ S5000x4.size a
  h_S5000x4 : 0 < S5000x4.numel
  inb_S6x8_S6x8_0_0 : ∀ a, (![0, 0] : Fin 2 → Nat) a + S6x8.size a ≤ S6x8.size a
  h_S6x8 : 0 < S6x8.numel
  bitsLt_bf16_f32 : FTy.bits .bf16 < FTy.bits .f32
  inb_S4x6_S4x6_0_0 : ∀ a, (![0, 0] : Fin 2 → Nat) a + S4x6.size a ≤ S4x6.size a
  h_S4x6 : 0 < S4x6.numel
  inb_S6x4_S6x4_0_0 : ∀ a, (![0, 0] : Fin 2 → Nat) a + S6x4.size a ≤ S6x4.size a
  h_S6x4 : 0 < S6x4.numel
  inb_S8x6_S8x6_0_0 : ∀ a, (![0, 0] : Fin 2 → Nat) a + S8x6.size a ≤ S8x6.size a
  h_S8x6 : 0 < S8x6.numel
  transposes_S6x8_p1_0_S8x6 : S6x8.Transposes [1, 0] S8x6
  transposes_S4x6_p1_0_S6x4 : S4x6.Transposes [1, 0] S6x4
  transposes_S6x4_p1_0_S4x6 : S6x4.Transposes [1, 0] S4x6
  transposes_S8x6_p1_0_S6x8 : S8x6.Transposes [1, 0] S6x8
  dot_S5000x8_S8x6_S5000x6_1_0_0_1_n_n_wf : DotDims.WF S5000x8 S8x6 S5000x6 [1] [0] [0] [1] [] []
  dot_S5000x6_S6x4_S5000x4_1_0_0_1_n_n_wf : DotDims.WF S5000x6 S6x4 S5000x4 [1] [0] [0] [1] [] []
  dot_S5000x4_S4x6_S5000x6_1_0_0_1_n_n_wf : DotDims.WF S5000x4 S4x6 S5000x6 [1] [0] [0] [1] [] []
  dot_S5000x6_S6x8_S5000x8_1_0_0_1_n_n_wf : DotDims.WF S5000x6 S6x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S4000000x8.size a
  hwx0_0 : ∀ i : grid0.Coords, EltTy.bits .f32 = 32 ∨ (Rect.block (s := S4000000x8) S5000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x4.size a ≤ S4000000x4.size a
  hwx0_1 : ∀ i : grid0.Coords, EltTy.bits .f32 = 32 ∨ (Rect.block (s := S4000000x4) S5000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x8.size a ≤ S6x8.size a
  hwx0_2 : ∀ i : grid0.Coords, EltTy.bits .f32 = 32 ∨ (Rect.block (s := S6x8) S6x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x6.size a ≤ S4x6.size a
  hwx0_3 : ∀ i : grid0.Coords, EltTy.bits .f32 = 32 ∨ (Rect.block (s := S4x6) S4x6.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x6.size a ≤ S4x6.size a
  hwx0_4 : ∀ i : grid0.Coords, EltTy.bits .f32 = 32 ∨ (Rect.block (s := S4x6) S4x6.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x4.size a ≤ S6x4.size a
  hwx0_5 : ∀ i : grid0.Coords, EltTy.bits .f32 = 32 ∨ (Rect.block (s := S6x4) S6x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x6.size a ≤ S8x6.size a
  hwx0_6 : ∀ i : grid0.Coords, EltTy.bits .f32 = 32 ∨ (Rect.block (s := S8x6) S8x6.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x8.size a ≤ S4000000x8.size a
  hwx0_7 : ∀ i : grid0.Coords, EltTy.bits .f32 = 32 ∨ (Rect.block (s := S4000000x8) S5000x8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x4.size a ≤ S4000000x4.size a
  hwx0_8 : ∀ i : grid0.Coords, EltTy.bits .f32 = 32 ∨ (Rect.block (s := S4000000x4) S5000x4.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x4.size a ≤ S4000000x4.size a
  hwx0_9 : ∀ i : grid0.Coords, EltTy.bits .f32 = 32 ∨ (Rect.block (s := S4000000x4) S5000x4.size (cc0_transform_9 i) (hinb0_9 i)).WholeWords (EltTy.packing .f32)

variable [Facts₀]

def dot_S5000x8_S8x6_S5000x6_1_0_0_1_n_n : DotDims S5000x8 S8x6 S5000x6 where
  lhsContracting := [1]
  rhsContracting := [0]
  lhsNonContracting := [0]
  rhsNonContracting := [1]
  lhsBatch := []
  rhsBatch := []
  wf := dot_S5000x8_S8x6_S5000x6_1_0_0_1_n_n_wf
def dot_S5000x6_S6x4_S5000x4_1_0_0_1_n_n : DotDims S5000x6 S6x4 S5000x4 where
  lhsContracting := [1]
  rhsContracting := [0]
  lhsNonContracting := [0]
  rhsNonContracting := [1]
  lhsBatch := []
  rhsBatch := []
  wf := dot_S5000x6_S6x4_S5000x4_1_0_0_1_n_n_wf
def dot_S5000x4_S4x6_S5000x6_1_0_0_1_n_n : DotDims S5000x4 S4x6 S5000x6 where
  lhsContracting := [1]
  rhsContracting := [0]
  lhsNonContracting := [0]
  rhsNonContracting := [1]
  lhsBatch := []
  rhsBatch := []
  wf := dot_S5000x4_S4x6_S5000x6_1_0_0_1_n_n_wf
def dot_S5000x6_S6x8_S5000x8_1_0_0_1_n_n : DotDims S5000x6 S6x8 S5000x8 where
  lhsContracting := [1]
  rhsContracting := [0]
  lhsNonContracting := [0]
  rhsNonContracting := [1]
  lhsBatch := []
  rhsBatch := []
  wf := dot_S5000x6_S6x8_S5000x8_1_0_0_1_n_n_wf

abbrev win0_0 : Pipeline.Window sig grid0 :=
  Pipeline.Window.ofSpec (Memref.whole main_arg0) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x6.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x6.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S6x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x6.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S5000x8.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S5000x4.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S5000x4.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4000000x8 : Shape := ⟨2, ![4000000, 8]⟩
abbrev S4000000x4 : Shape := ⟨2, ![4000000, 4]⟩
abbrev S6x8 : Shape := ⟨2, ![6, 8]⟩
abbrev S4x6 : Shape := ⟨2, ![4, 6]⟩
abbrev S6x4 : Shape := ⟨2, ![6, 4]⟩
abbrev S8x6 : Shape := ⟨2, ![8, 6]⟩
abbrev S4000000x6 : Shape := ⟨2, ![4000000, 6]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4000000x8, .f32⟩
  | .hbm, ⟨1, _⟩ => ⟨S4000000x4, .f32⟩
  | .hbm, ⟨2, _⟩ => ⟨S6x8, .f32⟩
  | .hbm, ⟨3, _⟩ => ⟨S4x6, .f32⟩
  | .hbm, ⟨4, _⟩ => ⟨S4x6, .f32⟩
  | .hbm, ⟨5, _⟩ => ⟨S6x4, .f32⟩
  | .hbm, ⟨6, _⟩ => ⟨S8x6, .f32⟩
  | .hbm, ⟨7, _⟩ => ⟨S8x6, .f32⟩
  | .hbm, ⟨8, _⟩ => ⟨S4000000x6, .f32⟩
  | .hbm, ⟨9, _⟩ => ⟨S_, .f32⟩
  | .hbm, ⟨10, _⟩ => ⟨S4000000x6, .f32⟩
  | .hbm, ⟨11, _⟩ => ⟨S4000000x6, .i1⟩
  | .hbm, ⟨12, _⟩ => ⟨S_, .f32⟩
  | .hbm, ⟨13, _⟩ => ⟨S4000000x6, .f32⟩
  | .hbm, ⟨14, _⟩ => ⟨S4000000x6, .i1⟩
  | .hbm, ⟨15, _⟩ => ⟨S_, .f32⟩
  | .hbm, ⟨16, _⟩ => ⟨S_, .f32⟩
  | .hbm, ⟨17, _⟩ => ⟨S4000000x6, .f32⟩
  | .hbm, ⟨18, _⟩ => ⟨S4000000x6, .f32⟩
  | .hbm, ⟨19, _⟩ => ⟨S4000000x6, .f32⟩
  | .hbm, ⟨20, _⟩ => ⟨S_, .f32⟩
  | .hbm, ⟨21, _⟩ => ⟨S4000000x6, .f32⟩
  | .hbm, ⟨22, _⟩ => ⟨S4000000x6, .f32⟩
  | .hbm, ⟨23, _⟩ => ⟨S4000000x6, .f32⟩
  | .hbm, ⟨24, _⟩ => ⟨S6x4, .f32⟩
  | .hbm, ⟨25, _⟩ => ⟨S4000000x4, .f32⟩
  | .hbm, ⟨26, _⟩ => ⟨S6x4, .f32⟩
  | .hbm, ⟨27, _⟩ => ⟨S4000000x4, .f32⟩
  | .hbm, ⟨28, _⟩ => ⟨S_, .f32⟩
  | .hbm, ⟨29, _⟩ => ⟨S4000000x4, .f32⟩
  | .hbm, ⟨30, _⟩ => ⟨S4000000x4, .f32⟩
  | .hbm, ⟨31, _⟩ => ⟨S4000000x4, .f32⟩
  | .hbm, ⟨32, _⟩ => ⟨S4000000x4, .f32⟩
  | .hbm, ⟨33, _⟩ => ⟨S4000000x4, .f32⟩
  | .hbm, ⟨34, _⟩ => ⟨S4x6, .f32⟩
  | .hbm, ⟨35, _⟩ => ⟨S4000000x6, .f32⟩
  | .hbm, ⟨36, _⟩ => ⟨S_, .f32⟩
  | .hbm, ⟨37, _⟩ => ⟨S4000000x6, .f32⟩
  | .hbm, ⟨38, _⟩ => ⟨S4000000x6, .i1⟩
  | .hbm, ⟨39, _⟩ => ⟨S_, .f32⟩
  | .hbm, ⟨40, _⟩ => ⟨S4000000x6, .f32⟩
  | .hbm, ⟨41, _⟩ => ⟨S4000000x6, .i1⟩
  | .hbm, ⟨42, _⟩ => ⟨S_, .f32⟩
  | .hbm, ⟨43, _⟩ => ⟨S_, .f32⟩
  | .hbm, ⟨44, _⟩ => ⟨S4000000x6, .f32⟩
  | .hbm, ⟨45, _⟩ => ⟨S4000000x6, .f32⟩
  | .hbm, ⟨46, _⟩ => ⟨S4000000x6, .f32⟩
  | .hbm, ⟨47, _⟩ => ⟨S_, .f32⟩
  | .hbm, ⟨48, _⟩ => ⟨S4000000x6, .f32⟩
  | .hbm, ⟨49, _⟩ => ⟨S4000000x6, .f32⟩
  | .hbm, ⟨50, _⟩ => ⟨S4000000x6, .f32⟩
  | .hbm, ⟨51, _⟩ => ⟨S6x8, .f32⟩
  | .hbm, ⟨52, _⟩ => ⟨S4000000x8, .f32⟩
  | _, _ => ⟨S4000000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_cst_1 : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_v4 : Ref sig .tc := ⟨.hbm, 18, rfl⟩
abbrev main_call0_v5 : Ref sig .tc := ⟨.hbm, 19, rfl⟩
abbrev main_call0_cst_2 : Ref sig .tc := ⟨.hbm, 20, rfl⟩
abbrev main_call0_v6 : Ref sig .tc := ⟨.hbm, 21, rfl⟩
abbrev main_call0_v7 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_call1_cst : Ref sig .tc := ⟨.hbm, 36, rfl⟩
abbrev main_call1_v0 : Ref sig .tc := ⟨.hbm, 37, rfl⟩
abbrev main_call1_v1 : Ref sig .tc := ⟨.hbm, 38, rfl⟩
abbrev main_call1_cst_0 : Ref sig .tc := ⟨.hbm, 39, rfl⟩
abbrev main_call1_v2 : Ref sig .tc := ⟨.hbm, 40, rfl⟩
abbrev main_call1_v3 : Ref sig .tc := ⟨.hbm, 41, rfl⟩
abbrev main_call1_cst_1 : Ref sig .tc := ⟨.hbm, 42, rfl⟩
abbrev main_call1_call0_v0 : Ref sig .tc := ⟨.hbm, 43, rfl⟩
abbrev main_call1_call0_v1 : Ref sig .tc := ⟨.hbm, 44, rfl⟩
abbrev main_call1_v4 : Ref sig .tc := ⟨.hbm, 45, rfl⟩
abbrev main_call1_v5 : Ref sig .tc := ⟨.hbm, 46, rfl⟩
abbrev main_call1_cst_2 : Ref sig .tc := ⟨.hbm, 47, rfl⟩
abbrev main_call1_v6 : Ref sig .tc := ⟨.hbm, 48, rfl⟩
abbrev main_call1_v7 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩

abbrev nD : Nat := 1
abbrev τ : Topo := Topo.v7x

variable {F : FTy → Type} [FloatOps F]

class Facts₀ : Prop where
  transposes_S6x8_S8x6_1_0 : S6x8.Transposes [1, 0] S8x6
  bcast_S_S4000000x6 : S_.BroadcastsInDim S4000000x6 (![] : Fin 0 → Fin S4000000x6.rank)
  transposes_S4x6_S6x4_1_0 : S4x6.Transposes [1, 0] S6x4
  bcast_S_S4000000x4 : S_.BroadcastsInDim S4000000x4 (![] : Fin 0 → Fin S4000000x4.rank)
  transposes_S6x4_S4x6_1_0 : S6x4.Transposes [1, 0] S4x6
  transposes_S8x6_S6x8_1_0 : S8x6.Transposes [1, 0] S6x8
  dot_S4000000x8_S8x6_S4000000x6_1_0_0_1_n_n_wf : DotDims.WF S4000000x8 S8x6 S4000000x6 [1] [0] [0] [1] [] []
  dot_S4000000x6_S6x4_S4000000x4_1_0_0_1_n_n_wf : DotDims.WF S4000000x6 S6x4 S4000000x4 [1] [0] [0] [1] [] []
  dot_S4000000x4_S4x6_S4000000x6_1_0_0_1_n_n_wf : DotDims.WF S4000000x4 S4x6 S4000000x6 [1] [0] [0] [1] [] []
  dot_S4000000x6_S6x8_S4000000x8_1_0_0_1_n_n_wf : DotDims.WF S4000000x6 S6x8 S4000000x8 [1] [0] [0] [1] [] []

variable [Facts₀]

def dot_S4000000x8_S8x6_S4000000x6_1_0_0_1_n_n : DotDims S4000000x8 S8x6 S4000000x6 where
  lhsContracting := [1]
  rhsContracting := [0]
  lhsNonContracting := [0]
  rhsNonContracting := [1]
  lhsBatch := []
  rhsBatch := []
  wf := dot_S4000000x8_S8x6_S4000000x6_1_0_0_1_n_n_wf
def dot_S4000000x6_S6x4_S4000000x4_1_0_0_1_n_n : DotDims S4000000x6 S6x4 S4000000x4 where
  lhsContracting := [1]
  rhsContracting := [0]
  lhsNonContracting := [0]
  rhsNonContracting := [1]
  lhsBatch := []
  rhsBatch := []
  wf := dot_S4000000x6_S6x4_S4000000x4_1_0_0_1_n_n_wf
def dot_S4000000x4_S4x6_S4000000x6_1_0_0_1_n_n : DotDims S4000000x4 S4x6 S4000000x6 where
  lhsContracting := [1]
  rhsContracting := [0]
  lhsNonContracting := [0]
  rhsNonContracting := [1]
  lhsBatch := []
  rhsBatch := []
  wf := dot_S4000000x4_S4x6_S4000000x6_1_0_0_1_n_n_wf
def dot_S4000000x6_S6x8_S4000000x8_1_0_0_1_n_n : DotDims S4000000x6 S6x8 S4000000x8 where
  lhsContracting := [1]
  rhsContracting := [0]
  lhsNonContracting := [0]
  rhsNonContracting := [1]
  lhsBatch := []
  rhsBatch := []
  wf := dot_S4000000x6_S6x8_S4000000x8_1_0_0_1_n_n_wf

class Facts : Prop extends Facts₀ where

variable [Facts]
-- ==== Proof.RowSpec.lean ====
/-
  The arithmetic of one row, and the three result arrays as functions of the seven argument arrays.

  The network is applied row by row. For a row `x` of 8 entries and a noise row `e` of 4, with weights
  `W1` [6,8], `W21`, `W22` [4,6], `W3` [6,4], `W4` [8,6] (each stored [out, in]):

    hidden j  = elu (∑ k, x k · W1 j k)                       6 entries
    head W a  = ∑ j, hidden j · W a j                         4 entries (the mean with W21, the log-variance with W22)
    latent a  = head W21 a + e a · exp (½ · head W22 a)       4 entries
    decoded o = ∑ j, elu (∑ a, latent a · W3 j a) · W4 o j    8 entries

  over the extended reals, the float words `0`, `1` and `½` kept as the words both programs spell. `elu v` is `v` where
  `v > 0` and `exp v − 1` elsewhere; jax spells the second branch `1 · expm1 (v where not v > 0, else 0)`, which is the
  same number: where the branch is taken the inner selection returns `v`, `expm1 v` is `exp v − 1` by definition, and
  `1` is the unit of the product on the extended reals (infinities included).
-/
import Idealize.ShloMosaic.PureOps.Ideal
import Idealize.ShloMosaic.PureOps.IdealRules
import Idealize.ShloMosaic.Lib.ValueIdx

noncomputable section

open scoped BigOperators

namespace Cert.Row

open Idealize.ShloMosaic Idealize.ShloMosaic.ValueIdx

/-- The float words the two programs spell: zero, one and one half. -/
abbrev zeroW : EReal := Ideal.ofBits .f32 0x00000000#32
abbrev oneW : EReal := Ideal.ofBits .f32 0x3F800000#32
abbrev halfW : EReal := Ideal.ofBits .f32 0x3F000000#32

/-- The word `0x3F800000` is the number one. -/
theorem oneW_eq : oneW = 1 := IdealRules.sign_bit.ideal_onePat .f32

/-- `elu` on one extended real, as the kernel spells it: `v` where `v > 0`, else `exp v − 1`. -/
def elu (v : EReal) : EReal :=
  Scalar.select (Ideal.cmp .ogt v zeroW) v (Ideal.exp v - oneW)

/-- `elu` as jax spells it: `v` where `v > 0`, else one times `exp s − 1`, `s` being `v` where not `v > 0` and zero
    where it is. -/
def eluJax (v : EReal) : EReal :=
  Scalar.select (Ideal.cmp .ogt v zeroW) v
    (oneW * (Ideal.exp (Scalar.select (Ideal.cmp .ogt v zeroW) zeroW v) - 1))

/-- The two spellings are one function: on the branch `v > 0` both are `v`; on the other the inner selection is `v`
    and `1 · y = y`. -/
theorem eluJax_eq (v : EReal) : eluJax v = elu v := by
  unfold eluJax elu Scalar.select
  by_cases h : Ideal.cmp .ogt v zeroW = 1
  · rw [if_pos h, if_pos h]
  · rw [if_neg h, if_neg h, if_neg h, oneW_eq, one_mul]

/-- Row `r` of a matrix of `w` columns, as a function of the column. -/
def rowOf {n w : Nat} (X : (⟨2, ![n, w]⟩ : Shape).Idx → EReal) (r : Fin n) : Fin w → EReal := fun k => X (ix2 r k)

/-- A matrix as a function of its two coordinates. -/
def matOf {a b : Nat} (W : (⟨2, ![a, b]⟩ : Shape).Idx → EReal) : Fin a → Fin b → EReal := fun i j => W (ix2 i j)

/-- The encoder's hidden layer on one row. -/
def hidden (x : Fin 8 → EReal) (W1 : Fin 6 → Fin 8 → EReal) (j : Fin 6) : EReal :=
  elu (∑ k : Fin 8, x k * W1 j k)

/-- One head of the encoder on one row. -/
def headAt (x : Fin 8 → EReal) (W1 : Fin 6 → Fin 8 → EReal) (W : Fin 4 → Fin 6 → EReal) (a : Fin 4) : EReal :=
  ∑ j : Fin 6, hidden x W1 j * W a j

/-- The latent sample of one row: the mean plus the noise times `exp (½ · log-variance)`. -/
def latent (x : Fin 8 → EReal) (e : Fin 4 → EReal) (W1 : Fin 6 → Fin 8 → EReal) (W21 W22 : Fin 4 → Fin 6 → EReal) (a : Fin 4) : EReal :=
  headAt x W1 W21 a + e a * Ideal.exp (halfW * headAt x W1 W22 a)

/-- The decoder on a latent row `z`. -/
def decode (z : Fin 4 → EReal) (W3 : Fin 6 → Fin 4 → EReal) (W4 : Fin 8 → Fin 6 → EReal) (o : Fin 8) : EReal :=
  ∑ j : Fin 6, elu (∑ a : Fin 4, z a * W3 j a) * W4 o j

/-- The network's output on one row. -/
def decoded (x : Fin 8 → EReal) (e : Fin 4 → EReal) (W1 : Fin 6 → Fin 8 → EReal) (W21 W22 : Fin 4 → Fin 6 → EReal)
    (W3 : Fin 6 → Fin 4 → EReal) (W4 : Fin 8 → Fin 6 → EReal) (o : Fin 8) : EReal :=
  decode (latent x e W1 W21 W22) W3 W4 o

/-! ## The result arrays -/

section Arrays

variable (X : (⟨2, ![4000000, 8]⟩ : Shape).Idx → EReal) (E : (⟨2, ![4000000, 4]⟩ : Shape).Idx → EReal)
  (W1 : (⟨2, ![6, 8]⟩ : Shape).Idx → EReal) (W21 W22 : (⟨2, ![4, 6]⟩ : Shape).Idx → EReal)
  (W3 : (⟨2, ![6, 4]⟩ : Shape).Idx → EReal) (W4 : (⟨2, ![8, 6]⟩ : Shape).Idx → EReal)

/-- The output array: at (r, o), the network's output on row `r` of `X` and of `E`. -/
def outArr : (⟨2, ![4000000, 8]⟩ : Shape).Idx → EReal := fun i =>
  decoded (rowOf X (i 0)) (rowOf E (i 0)) (matOf W1) (matOf W21) (matOf W22) (matOf W3) (matOf W4) (i 1)

/-- A head's array (the mean with `W21`, the log-variance with `W22`): at (r, a), the head on row `r` of `X`. -/
def headArr (W : (⟨2, ![4, 6]⟩ : Shape).Idx → EReal) : (⟨2, ![4000000, 4]⟩ : Shape).Idx → EReal := fun i =>
  headAt (rowOf X (i 0)) (matOf W1) (matOf W) (i 1)

end Arrays

end Cert.Row

end
-- ==== Proof.LibPlainProduct.lean ====
/-
  A product of an m×k matrix with the TRANSPOSE of an n×k matrix, read at one entry.

  A linear layer `y = x · Wᵀ` with the weight stored [out, in] prints in a kernel as a `tpu.matmul` of the rows with
  `tpu.transpose W` into a zero accumulator, and on the host as a `dot_general` of the rows with `stablehlo.transpose W`;
  both have the dimension numbers of the plain product (contract the left operand's axis 1 with the right operand's
  axis 0, no batch axis). At the ideal values either one, read at entry (a, b), is the sum over the contracted
  coordinate c of `x (a, c) · W (b, c)`: the accumulator is the zero of the extended reals, which `0 + s = s` drops, and the
  transpose only names the entry (c, b) of its result as the entry (b, c) of its operand. Nothing here needs the entries
  to be finite.
-/
import Idealize.ShloMosaic.Lib.StackMember
import Idealize.ShloMosaic.Lib.KernelVsHost
import Idealize.ShloMosaic.Lib.Pipeline.Value
import Idealize.ShloMosaic.Lib.ValueIdx

noncomputable section

open scoped BigOperators

namespace Idealize.ShloMosaic.PlainProduct

open Idealize.ShloMosaic Idealize.ShloMosaic.ValueIdx

variable {m k n : Nat} {φ₁ φ₂ : FTy}

/-- The transpose of an n×k matrix, read at (c, b), is the matrix at (b, c). -/
theorem transpose_swap_apply {α : Type} (W : (⟨2, ![n, k]⟩ : Shape).Idx → α)
    (h : (⟨2, ![n, k]⟩ : Shape).Transposes [1, 0] ⟨2, ![k, n]⟩) (c : Fin k) (b : Fin n) :
    transpose ⟨2, ![k, n]⟩ [1, 0] W h (ix2 c b) = W (ix2 b c) :=
  transpose_apply [1, 0] W h (ix2 c b) (ix2 b c) fun ax => by
    match ax with
    | ⟨0, _⟩ => rfl
    | ⟨1, _⟩ => rfl

/-- A host `dot_general` whose dimension numbers are the plain product's, read at (a, b): the sum over the contracted
    coordinate of the products of the entries. -/
theorem dotGeneral_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- A kernel's `tpu.matmul` with those dimension numbers into the zero splat, read at (a, b): the same sum. -/
theorem matmul_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant ⟨2, ![m, n]⟩ .f32 0x00000000#32) (ix2 a b) = ∑ c : Fin k, A (ix2 a c) * B (ix2 c b) := by
  rw [matmul_zero_eq_dotGeneral]
  exact dotGeneral_of_plain D hD prec A B a b

/-- THE HOST'S LINEAR LAYER at an entry: `dot_general` of the rows with the transposed weight is `∑ c, x (a, c) · W (b, c)`. -/
theorem dotGeneral_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    Host.dotGeneral D prec A (transpose ⟨2, ![k, n]⟩ [1, 0] W h) (ix2 a b) = ∑ c : Fin k, A (ix2 a c) * W (ix2 b c) := by
  rw [dotGeneral_of_plain D hD]
  exact Finset.sum_congr rfl fun c _ => by rw [transpose_swap_apply]

/-- THE KERNEL'S LINEAR LAYER at an entry: `tpu.matmul` of the rows with the transposed weight into the zero splat is the
    same sum. -/
theorem matmul_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    matmul D prec A (transpose ⟨2, ![k, n]⟩ [1, 0] W h) (constant ⟨2, ![m, n]⟩ .f32 0x00000000#32) (ix2 a b)
      = ∑ c : Fin k, A (ix2 a c) * W (ix2 b c) := by
  rw [matmul_of_plain D hD]
  exact Finset.sum_congr rfl fun c _ => by rw [transpose_swap_apply]

end Idealize.ShloMosaic.PlainProduct

end
-- ==== Proof.KernelRow.lean ====
/-
  The kernel body's stored values, read at one entry of a block.

  At a grid point the body loads a block of 5000 rows of `x` and of `eps` and the five whole weights, and stores three
  values: the mean and the log-variance heads of the block's rows, and the decoder's output on them. Its roundings to
  bf16 on the way into each product are the identity on the extended reals, each `tpu.matmul` with a transposed weight
  into a zero accumulator is the plain sum of products over the contracted coordinate, and the pointwise operations act
  entry by entry; so each stored value at (p, ·) is the row arithmetic of Proof/RowSpec.lean on row `p` of the blocks.
-/
import proofs.«180874_j27891517620820_1_alg».proof.Proof.Gen.KernelIdeal.Skeleton
import proofs.«180874_j27891517620820_1_alg».proof.Proof.RowSpec
import proofs.«180874_j27891517620820_1_alg».proof.Proof.LibPlainProduct

noncomputable section

open scoped BigOperators

namespace Cert.KernelIdeal.BodyRow

open Cert.KernelIdeal Cert.KernelIdeal.Gen Idealize.ShloMosaic Idealize.ShloMosaic.ValueIdx Idealize.ShloMosaic.PlainProduct Cert.Row

/-- The four products' dimension numbers are the plain product's. -/
theorem dims1 : dot_S5000x8_S8x6_S5000x6_1_0_0_1_n_n = DotDims.plain 5000 8 6 := rfl
theorem dims2 : dot_S5000x6_S6x4_S5000x4_1_0_0_1_n_n = DotDims.plain 5000 6 4 := rfl
theorem dims3 : dot_S5000x4_S4x6_S5000x6_1_0_0_1_n_n = DotDims.plain 5000 4 6 := rfl
theorem dims4 : dot_S5000x6_S6x8_S5000x8_1_0_0_1_n_n = DotDims.plain 5000 6 8 := rfl

variable (x0 : Vec Ideal S5000x8 .f32) (x1 : Vec Ideal S5000x4 .f32) (x2 : Vec Ideal S6x8 .f32) (x3 x4 : Vec Ideal S4x6 .f32)
  (x5 : Vec Ideal S6x4 .f32) (x6 : Vec Ideal S8x6 .f32)

/-- The hidden layer of the block's row `p`: the product with `W1ᵀ`, then `elu` entry by entry. -/
theorem hidden_apply (p : Fin 5000) (j : Fin 6) :
    k0_pay4 x0 x2 (ix2 p j) = hidden (rowOf (n := 5000) (w := 8) x0 p) (matOf (a := 6) (b := 8) x2) j := by
  have hM := matmul_transposed_apply dot_S5000x8_S8x6_S5000x6_1_0_0_1_n_n dims1 none
    (truncf .bf16 x0 bitsLt_bf16_f32 : FVec Ideal S5000x8 .bf16) (truncf .bf16 x2 bitsLt_bf16_f32 : FVec Ideal S6x8 .bf16)
    transposes_S6x8_p1_0_S8x6 p j
  exact (show k0_pay4 x0 x2 (ix2 p j) = elu _ from rfl).trans (congrArg elu hM)

/-- A head on the block's row `p`: the hidden layer's product with the head's weight, transposed. -/
theorem head1_apply (p : Fin 5000) (a : Fin 4) :
    k0_pay5 x0 x2 x3 (ix2 p a)
      = headAt (rowOf (n := 5000) (w := 8) x0 p) (matOf (a := 6) (b := 8) x2) (matOf (a := 4) (b := 6) x3) a := by
  refine (matmul_transposed_apply dot_S5000x6_S6x4_S5000x4_1_0_0_1_n_n dims2 none (k0_pay4 x0 x2)
    (truncf .bf16 x3 bitsLt_bf16_f32 : FVec Ideal S4x6 .bf16) transposes_S4x6_p1_0_S6x4 p a).trans ?_
  exact Finset.sum_congr rfl fun j _ => congrArg (· * _) (hidden_apply x0 x2 p j)

theorem head2_apply (p : Fin 5000) (a : Fin 4) :
    k0_pay6 x0 x2 x4 (ix2 p a)
      = headAt (rowOf (n := 5000) (w := 8) x0 p) (matOf (a := 6) (b := 8) x2) (matOf (a := 4) (b := 6) x4) a := by
  refine (matmul_transposed_apply dot_S5000x6_S6x4_S5000x4_1_0_0_1_n_n dims2 none (k0_pay4 x0 x2)
    (truncf .bf16 x4 bitsLt_bf16_f32 : FVec Ideal S4x6 .bf16) transposes_S4x6_p1_0_S6x4 p a).trans ?_
  exact Finset.sum_congr rfl fun j _ => congrArg (· * _) (hidden_apply x0 x2 p j)

/-- The latent sample of the block's row `p`: the mean plus the noise times `exp (½ · log-variance)`. -/
theorem latent_apply (p : Fin 5000) (a : Fin 4) :
    k0_pay7 x0 x1 x2 x3 x4 (ix2 p a)
      = latent (rowOf (n := 5000) (w := 8) x0 p) (rowOf (n := 5000) (w := 4) x1 p) (matOf (a := 6) (b := 8) x2)
          (matOf (a := 4) (b := 6) x3) (matOf (a := 4) (b := 6) x4) a := by
  show k0_pay5 x0 x2 x3 (ix2 p a) + x1 (ix2 p a) * Ideal.exp (halfW * k0_pay6 x0 x2 x4 (ix2 p a)) = _
  rw [head1_apply, head2_apply]
  rfl

/-- The decoder on row `p` of any latent block `z`: the product with `W3ᵀ`, `elu`, the product with `W4ᵀ`. -/
theorem decode_apply (z : FVec Ideal S5000x4 .f32) (p : Fin 5000) (o : Fin 8) :
    k0_pay1 (k0_pay2 x5) (k0_pay3 x6) z (ix2 p o)
      = decode (rowOf (n := 5000) (w := 4) z p) (matOf (a := 6) (b := 4) x5) (matOf (a := 8) (b := 6) x6) o := by
  have hM : ∀ j : Fin 6, matmul dot_S5000x4_S4x6_S5000x6_1_0_0_1_n_n none (truncf .bf16 z bitsLt_bf16_f32 : FVec Ideal S5000x4 .bf16)
      (transpose S4x6 [1, 0] (k0_pay2 x5) transposes_S6x4_p1_0_S4x6) (constant S5000x6 .f32 0x00000000#32) (ix2 p j)
        = ∑ a : Fin 4, z (ix2 p a) * x5 (ix2 j a) := fun j =>
    matmul_transposed_apply dot_S5000x4_S4x6_S5000x6_1_0_0_1_n_n dims3 none
      (truncf .bf16 z bitsLt_bf16_f32 : FVec Ideal S5000x4 .bf16) (k0_pay2 x5) transposes_S6x4_p1_0_S4x6 p j
  unfold k0_pay1
  refine (matmul_transposed_apply dot_S5000x6_S6x8_S5000x8_1_0_0_1_n_n dims4 none _ (k0_pay3 x6) transposes_S8x6_p1_0_S6x8 p o).trans ?_
  exact Finset.sum_congr rfl fun j _ => congrArg (· * _) ((show _ = elu _ from rfl).trans (congrArg elu (hM j)))

/-- THE OUTPUT BLOCK at (p, o): the network's output on row `p` of the loaded blocks. -/
theorem out_apply (p : Fin 5000) (o : Fin 8) :
    k0_pay1 (k0_pay2 x5) (k0_pay3 x6) (k0_pay7 x0 x1 x2 x3 x4) (ix2 p o)
      = decoded (rowOf (n := 5000) (w := 8) x0 p) (rowOf (n := 5000) (w := 4) x1 p) (matOf (a := 6) (b := 8) x2)
          (matOf (a := 4) (b := 6) x3) (matOf (a := 4) (b := 6) x4) (matOf (a := 6) (b := 4) x5) (matOf (a := 8) (b := 6) x6) o := by
  rw [decode_apply]
  unfold decoded
  refine congrArg (fun z => decode z _ _ o) (funext fun a => ?_)
  exact latent_apply x0 x1 x2 x3 x4 p a

end Cert.KernelIdeal.BodyRow

end
-- ==== Proof.KernelArrays.lean ====
/-
  From the blocks to the arrays: what the kernel's three result arrays hold after the run.

  The grid has 800 points; at point `t` the two row inputs' windows and the three outputs' windows sit on rows
  `5000·t … 5000·t + 4999` of their arrays and the five weights' windows on the whole weight. So the block an output
  window writes back at `t` — the body's stored value of the input blocks at `t` — is, entry by entry, the row arithmetic
  on the corresponding rows of the ARGUMENT arrays: block `t` of one whole-array function (`Row.outArr`, `Row.headArr`). The
  800 blocks tile the 4,000,000 rows (row `r` is in the block of point `r / 5000`), so each result array ends holding
  that function.
-/
import proofs.«180874_j27891517620820_1_alg».proof.Proof.Gen.KernelIdeal.Value
import proofs.«180874_j27891517620820_1_alg».proof.Proof.KernelRow
import Idealize.ShloMosaic.Lib.Pipeline.Value

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Value Cert.KernelIdeal.BodyRow Idealize.ShloMosaic.ValueIdx Cert.Row

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 800 points: the row windows (inputs 0, 1; outputs 7, 8, 9) are at block
    (t, 0), the weight windows (2 … 6) at block (0, 0). -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = t.val
    ∧ win0_7.index t (1 : Fin 2) = 0
    ∧ win0_8.index t (0 : Fin 2) = t.val
    ∧ win0_8.index t (1 : Fin 2) = 0
    ∧ win0_9.index t (0 : Fin 2) = t.val
    ∧ win0_9.index t (1 : Fin 2) = 0 :=
  (by decide +kernel : ∀ t : Fin grid0.N, _)

/-! ## The input blocks as rows of the arguments -/

/-- Row `p` of window 0's block at point `t` is row `5000·t + p` of argument 0. -/
theorem x_rows (c : Dev nD) (t : Fin cfg0.N) (p : Fin 5000) (r : Fin 4000000) (hr : r.val = t.val * 5000 + p.val) :
    rowOf (n := 5000) (w := 8) (iblk m c 0 t) p = rowOf (n := 4000000) (w := 8) (m ((c : Thread nD τ).loc main_arg0)) r := by
  funext k
  show (iblk m c 0 t : Vec Ideal S5000x8 .f32) (ix2 p k) = ((m ((c : Thread nD τ).loc main_arg0)) : S4000000x8.Idx → Elt Ideal .f32) (ix2 r k)
  unfold iblk
  rw [View.read_apply]
  show V m c main_arg0 _ = m (c.tc.loc main_arg0) _
  unfold V
  congr 1
  funext ax
  apply Fin.ext
  match ax with
  | ⟨0, _⟩ => show win0_0.index t (0 : Fin 2) * 5000 + 1 * p.val = r.val; rw [(idx_facts t).1, hr]; omega
  | ⟨1, _⟩ => show win0_0.index t (1 : Fin 2) * 8 + 1 * k.val = k.val; rw [(idx_facts t).2.1]; omega

/-- Row `p` of window 1's block at point `t` is row `5000·t + p` of argument 1. -/
theorem eps_rows (c : Dev nD) (t : Fin cfg0.N) (p : Fin 5000) (r : Fin 4000000) (hr : r.val = t.val * 5000 + p.val) :
    rowOf (n := 5000) (w := 4) (iblk m c 1 t) p = rowOf (n := 4000000) (w := 4) (m ((c : Thread nD τ).loc main_arg1)) r := by
  funext k
  show (iblk m c 1 t : Vec Ideal S5000x4 .f32) (ix2 p k) = ((m ((c : Thread nD τ).loc main_arg1)) : S4000000x4.Idx → Elt Ideal .f32) (ix2 r k)
  unfold iblk
  rw [View.read_apply]
  show V m c main_arg1 _ = m (c.tc.loc main_arg1) _
  unfold V
  congr 1
  funext ax
  apply Fin.ext
  match ax with
  | ⟨0, _⟩ => show win0_1.index t (0 : Fin 2) * 5000 + 1 * p.val = r.val; rw [(idx_facts t).2.2.1, hr]; omega
  | ⟨1, _⟩ => show win0_1.index t (1 : Fin 2) * 4 + 1 * k.val = k.val; rw [(idx_facts t).2.2.2.1]; omega

/-- Window 2's block at every point is the whole of argument 2. -/
theorem w1_blk (c : Dev nD) (t : Fin cfg0.N) :
    matOf (a := 6) (b := 8) (iblk m c 2 t) = matOf (a := 6) (b := 8) (m ((c : Thread nD τ).loc main_arg2)) := by
  funext i j
  show (iblk m c 2 t : Vec Ideal S6x8 .f32) (ix2 i j) = ((m ((c : Thread nD τ).loc main_arg2)) : S6x8.Idx → Elt Ideal .f32) (ix2 i j)
  unfold iblk
  rw [View.read_apply]
  show V m c main_arg2 _ = m (c.tc.loc main_arg2) _
  unfold V
  congr 1
  funext ax
  apply Fin.ext
  match ax with
  | ⟨0, _⟩ => show win0_2.index t (0 : Fin 2) * 6 + 1 * i.val = i.val; rw [(idx_facts t).2.2.2.2.1]; omega
  | ⟨1, _⟩ => show win0_2.index t (1 : Fin 2) * 8 + 1 * j.val = j.val; rw [(idx_facts t).2.2.2.2.2.1]; omega

/-- Window 3's block at every point is the whole of argument 3. -/
theorem w21_blk (c : Dev nD) (t : Fin cfg0.N) :
    matOf (a := 4) (b := 6) (iblk m c 3 t) = matOf (a := 4) (b := 6) (m ((c : Thread nD τ).loc main_arg3)) := by
  funext i j
  show (iblk m c 3 t : Vec Ideal S4x6 .f32) (ix2 i j) = ((m ((c : Thread nD τ).loc main_arg3)) : S4x6.Idx → Elt Ideal .f32) (ix2 i j)
  unfold iblk
  rw [View.read_apply]
  show V m c main_arg3 _ = m (c.tc.loc main_arg3) _
  unfold V
  congr 1
  funext ax
  apply Fin.ext
  match ax with
  | ⟨0, _⟩ => show win0_3.index t (0 : Fin 2) * 4 + 1 * i.val = i.val; rw [(idx_facts t).2.2.2.2.2.2.1]; omega
  | ⟨1, _⟩ => show win0_3.index t (1 : Fin 2) * 6 + 1 * j.val = j.val; rw [(idx_facts t).2.2.2.2.2.2.2.1]; omega

/-- Window 4's block at every point is the whole of argument 4. -/
theorem w22_blk (c : Dev nD) (t : Fin cfg0.N) :
    matOf (a := 4) (b := 6) (iblk m c 4 t) = matOf (a := 4) (b := 6) (m ((c : Thread nD τ).loc main_arg4)) := by
  funext i j
  show (iblk m c 4 t : Vec Ideal S4x6 .f32) (ix2 i j) = ((m ((c : Thread nD τ).loc main_arg4)) : S4x6.Idx → Elt Ideal .f32) (ix2 i j)
  unfold iblk
  rw [View.read_apply]
  show V m c main_arg4 _ = m (c.tc.loc main_arg4) _
  unfold V
  congr 1
  funext ax
  apply Fin.ext
  match ax with
  | ⟨0, _⟩ => show win0_4.index t (0 : Fin 2) * 4 + 1 * i.val = i.val; rw [(idx_facts t).2.2.2.2.2.2.2.2.1]; omega
  | ⟨1, _⟩ => show win0_4.index t (1 : Fin 2) * 6 + 1 * j.val = j.val; rw [(idx_facts t).2.2.2.2.2.2.2.2.2.1]; omega

/-- Window 5's block at every point is the whole of argument 5. -/
theorem w3_blk (c : Dev nD) (t : Fin cfg0.N) :
    matOf (a := 6) (b := 4) (iblk m c 5 t) = matOf (a := 6) (b := 4) (m ((c : Thread nD τ).loc main_arg5)) := by
  funext i j
  show (iblk m c 5 t : Vec Ideal S6x4 .f32) (ix2 i j) = ((m ((c : Thread nD τ).loc main_arg5)) : S6x4.Idx → Elt Ideal .f32) (ix2 i j)
  unfold iblk
  rw [View.read_apply]
  show V m c main_arg5 _ = m (c.tc.loc main_arg5) _
  unfold V
  congr 1
  funext ax
  apply Fin.ext
  match ax with
  | ⟨0, _⟩ => show win0_5.index t (0 : Fin 2) * 6 + 1 * i.val = i.val; rw [(idx_facts t).2.2.2.2.2.2.2.2.2.2.1]; omega
  | ⟨1, _⟩ => show win0_5.index t (1 : Fin 2) * 4 + 1 * j.val = j.val; rw [(idx_facts t).2.2.2.2.2.2.2.2.2.2.2.1]; omega

/-- Window 6's block at every point is the whole of argument 6. -/
theorem w4_blk (c : Dev nD) (t : Fin cfg0.N) :
    matOf (a := 8) (b := 6) (iblk m c 6 t) = matOf (a := 8) (b := 6) (m ((c : Thread nD τ).loc main_arg6)) := by
  funext i j
  show (iblk m c 6 t : Vec Ideal S8x6 .f32) (ix2 i j) = ((m ((c : Thread nD τ).loc main_arg6)) : S8x6.Idx → Elt Ideal .f32) (ix2 i j)
  unfold iblk
  rw [View.read_apply]
  show V m c main_arg6 _ = m (c.tc.loc main_arg6) _
  unfold V
  congr 1
  funext ax
  apply Fin.ext
  match ax with
  | ⟨0, _⟩ => show win0_6.index t (0 : Fin 2) * 8 + 1 * i.val = i.val; rw [(idx_facts t).2.2.2.2.2.2.2.2.2.2.2.2.1]; omega
  | ⟨1, _⟩ => show win0_6.index t (1 : Fin 2) * 6 + 1 * j.val = j.val; rw [(idx_facts t).2.2.2.2.2.2.2.2.2.2.2.2.2.1]; omega

/-! ## The output blocks inside their arrays -/

/-- Entry (p, q) of output window 7's block at point `t` is entry (5000·t + p, q) of its array. -/
theorem emb7 (t : Fin cfg0.N) (p : Fin 5000) (q : Fin 8) :
    ∃ r : Fin 4000000, r.val = t.val * 5000 + p.val ∧ ((cfg0.win 7).blk t).view.emb (ix2 p q) = (ix2 r q : S4000000x8.Idx) := by
  have ht : t.val < 800 := lt_of_lt_of_eq t.isLt N_0
  refine ⟨⟨t.val * 5000 + p.val, by have := p.isLt; omega⟩, rfl, ?_⟩
  funext ax
  apply Fin.ext
  match ax with
  | ⟨0, _⟩ => show win0_7.index t (0 : Fin 2) * 5000 + 1 * p.val = t.val * 5000 + p.val; rw [(idx_facts t).2.2.2.2.2.2.2.2.2.2.2.2.2.2.1]; omega
  | ⟨1, _⟩ => show win0_7.index t (1 : Fin 2) * 8 + 1 * q.val = q.val; rw [(idx_facts t).2.2.2.2.2.2.2.2.2.2.2.2.2.2.2.1]; omega

/-- An index of the array is in point `t`'s block of window 7 iff each coordinate is in the block's range on its axis. -/
theorem mem_blk7 (t : Fin cfg0.N) (i : S4000000x8.Idx) :
    i ∈ ((cfg0.win 7).blk t).view.set ↔ ∀ a : Fin 2, win0_7.index t a * S5000x8.size a ≤ (i a).val ∧ (i a).val < win0_7.index t a * S5000x8.size a + S5000x8.size a := by
  show i ∈ ((View.whole main_v0_0).slice (win0_7.rect t)).set ↔ _
  rw [View.set_slice_whole, Rect.mem_set_unit]
  exact Iff.rfl

/-- Every index of window 7's array is in the block of the point `row / 5000`. -/
theorem cover7 (i : S4000000x8.Idx) : ∃ t : Fin cfg0.N, (cfg0.win 7).flush t = true ∧ i ∈ ((cfg0.win 7).blk t).view.set := by
  have hi0 : (i 0).val < 4000000 := (i 0).isLt
  have hi1 : (i 1).val < 8 := (i 1).isLt
  have hN : cfg0.N = 800 := N_0
  obtain ⟨t, ht⟩ : ∃ t : Fin cfg0.N, t.val = (i 0).val / 5000 := ⟨⟨(i 0).val / 5000, by rw [hN]; omega⟩, rfl⟩
  refine ⟨t, flush0_7 t, ?_⟩
  rw [mem_blk7]
  intro a
  match a with
  | ⟨0, _⟩ => show win0_7.index t (0 : Fin 2) * 5000 ≤ (i 0).val ∧ (i 0).val < win0_7.index t (0 : Fin 2) * 5000 + 5000; rw [(idx_facts t).2.2.2.2.2.2.2.2.2.2.2.2.2.2.1, ht]; omega
  | ⟨1, _⟩ => show win0_7.index t (1 : Fin 2) * 8 ≤ (i 1).val ∧ (i 1).val < win0_7.index t (1 : Fin 2) * 8 + 8; rw [(idx_facts t).2.2.2.2.2.2.2.2.2.2.2.2.2.2.2.1]; omega

/-- Entry (p, q) of output window 8's block at point `t` is entry (5000·t + p, q) of its array. -/
theorem emb8 (t : Fin cfg0.N) (p : Fin 5000) (q : Fin 4) :
    ∃ r : Fin 4000000, r.val = t.val * 5000 + p.val ∧ ((cfg0.win 8).blk t).view.emb (ix2 p q) = (ix2 r q : S4000000x4.Idx) := by
  have ht : t.val < 800 := lt_of_lt_of_eq t.isLt N_0
  refine ⟨⟨t.val * 5000 + p.val, by have := p.isLt; omega⟩, rfl, ?_⟩
  funext ax
  apply Fin.ext
  match ax with
  | ⟨0, _⟩ => show win0_8.index t (0 : Fin 2) * 5000 + 1 * p.val = t.val * 5000 + p.val; rw [(idx_facts t).2.2.2.2.2.2.2.2.2.2.2.2.2.2.2.2.1]; omega
  | ⟨1, _⟩ => show win0_8.index t (1 : Fin 2) * 4 + 1 * q.val = q.val; rw [(idx_facts t).2.2.2.2.2.2.2.2.2.2.2.2.2.2.2.2.2.1]; omega

/-- An index of the array is in point `t`'s block of window 8 iff each coordinate is in the block's range on its axis. -/
theorem mem_blk8 (t : Fin cfg0.N) (i : S4000000x4.Idx) :
    i ∈ ((cfg0.win 8).blk t).view.set ↔ ∀ a : Fin 2, win0_8.index t a * S5000x4.size a ≤ (i a).val ∧ (i a).val < win0_8.index t a * S5000x4.size a + S5000x4.size a := by
  show i ∈ ((View.whole main_v0_1).slice (win0_8.rect t)).set ↔ _
  rw [View.set_slice_whole, Rect.mem_set_unit]
  exact Iff.rfl

/-- Every index of window 8's array is in the block of the point `row / 5000`. -/
theorem cover8 (i : S4000000x4.Idx) : ∃ t : Fin cfg0.N, (cfg0.win 8).flush t = true ∧ i ∈ ((cfg0.win 8).blk t).view.set := by
  have hi0 : (i 0).val < 4000000 := (i 0).isLt
  have hi1 : (i 1).val < 4 := (i 1).isLt
  have hN : cfg0.N = 800 := N_0
  obtain ⟨t, ht⟩ : ∃ t : Fin cfg0.N, t.val = (i 0).val / 5000 := ⟨⟨(i 0).val / 5000, by rw [hN]; omega⟩, rfl⟩
  refine ⟨t, flush0_8 t, ?_⟩
  rw [mem_blk8]
  intro a
  match a with
  | ⟨0, _⟩ => show win0_8.index t (0 : Fin 2) * 5000 ≤ (i 0).val ∧ (i 0).val < win0_8.index t (0 : Fin 2) * 5000 + 5000; rw [(idx_facts t).2.2.2.2.2.2.2.2.2.2.2.2.2.2.2.2.1, ht]; omega
  | ⟨1, _⟩ => show win0_8.index t (1 : Fin 2) * 4 ≤ (i 1).val ∧ (i 1).val < win0_8.index t (1 : Fin 2) * 4 + 4; rw [(idx_facts t).2.2.2.2.2.2.2.2.2.2.2.2.2.2.2.2.2.1]; omega

/-- Entry (p, q) of output window 9's block at point `t` is entry (5000·t + p, q) of its array. -/
theorem emb9 (t : Fin cfg0.N) (p : Fin 5000) (q : Fin 4) :
    ∃ r : Fin 4000000, r.val = t.val * 5000 + p.val ∧ ((cfg0.win 9).blk t).view.emb (ix2 p q) = (ix2 r q : S4000000x4.Idx) := by
  have ht : t.val < 800 := lt_of_lt_of_eq t.isLt N_0
  refine ⟨⟨t.val * 5000 + p.val, by have := p.isLt; omega⟩, rfl, ?_⟩
  funext ax
  apply Fin.ext
  match ax with
  | ⟨0, _⟩ => show win0_9.index t (0 : Fin 2) * 5000 + 1 * p.val = t.val * 5000 + p.val; rw [(idx_facts t).2.2.2.2.2.2.2.2.2.2.2.2.2.2.2.2.2.2.1]; omega
  | ⟨1, _⟩ => show win0_9.index t (1 : Fin 2) * 4 + 1 * q.val = q.val; rw [(idx_facts t).2.2.2.2.2.2.2.2.2.2.2.2.2.2.2.2.2.2.2]; omega

/-- An index of the array is in point `t`'s block of window 9 iff each coordinate is in the block's range on its axis. -/
theorem mem_blk9 (t : Fin cfg0.N) (i : S4000000x4.Idx) :
    i ∈ ((cfg0.win 9).blk t).view.set ↔ ∀ a : Fin 2, win0_9.index t a * S5000x4.size a ≤ (i a).val ∧ (i a).val < win0_9.index t a * S5000x4.size a + S5000x4.size a := by
  show i ∈ ((View.whole main_v0_2).slice (win0_9.rect t)).set ↔ _
  rw [View.set_slice_whole, Rect.mem_set_unit]
  exact Iff.rfl

/-- Every index of window 9's array is in the block of the point `row / 5000`. -/
theorem cover9 (i : S4000000x4.Idx) : ∃ t : Fin cfg0.N, (cfg0.win 9).flush t = true ∧ i ∈ ((cfg0.win 9).blk t).view.set := by
  have hi0 : (i 0).val < 4000000 := (i 0).isLt
  have hi1 : (i 1).val < 4 := (i 1).isLt
  have hN : cfg0.N = 800 := N_0
  obtain ⟨t, ht⟩ : ∃ t : Fin cfg0.N, t.val = (i 0).val / 5000 := ⟨⟨(i 0).val / 5000, by rw [hN]; omega⟩, rfl⟩
  refine ⟨t, flush0_9 t, ?_⟩
  rw [mem_blk9]
  intro a
  match a with
  | ⟨0, _⟩ => show win0_9.index t (0 : Fin 2) * 5000 ≤ (i 0).val ∧ (i 0).val < win0_9.index t (0 : Fin 2) * 5000 + 5000; rw [(idx_facts t).2.2.2.2.2.2.2.2.2.2.2.2.2.2.2.2.2.2.1, ht]; omega
  | ⟨1, _⟩ => show win0_9.index t (1 : Fin 2) * 4 ≤ (i 1).val ∧ (i 1).val < win0_9.index t (1 : Fin 2) * 4 + 4; rw [(idx_facts t).2.2.2.2.2.2.2.2.2.2.2.2.2.2.2.2.2.2.2]; omega

/-! ## What each point writes back -/

/-- Point `t` writes back, to the output's array, block `t` of `Row.outArr` of the argument arrays. -/
theorem flushed_out (c : Dev nD) (t : Fin cfg0.N) :
    (dats m 0 c).flushed 7 t = ((cfg0.win 7).blk t).view.read (Elt Ideal) (outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [flushed7]
  unfold out0_7
  rw [View.canon_unit_zero hz]
  simp only [View.ld_unit_zero (S := S5000x8) hz, View.ld_unit_zero (S := S5000x4) hz, View.ld_unit_zero (S := S6x8) hz, View.ld_unit_zero (S := S4x6) hz, View.ld_unit_zero (S := S6x4) hz, View.ld_unit_zero (S := S8x6) hz]
  funext y
  obtain ⟨p, o, rfl⟩ : ∃ (p : Fin 5000) (o : Fin 8), y = ix2 p o := ⟨y 0, y 1, eq_ix2 y⟩
  obtain ⟨r, hr, he⟩ := emb7 t p o
  show k0_pay1 (k0_pay2 (iblk m c 5 t)) (k0_pay3 (iblk m c 6 t)) (k0_pay7 (iblk m c 0 t) (iblk m c 1 t) (iblk m c 2 t) (iblk m c 3 t) (iblk m c 4 t)) (ix2 p o)
    = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb (ix2 p o))
  rw [he]
  refine (out_apply (iblk m c 0 t) (iblk m c 1 t) (iblk m c 2 t) (iblk m c 3 t) (iblk m c 4 t) (iblk m c 5 t) (iblk m c 6 t) p o).trans ?_
  rw [x_rows m c t p r hr, eps_rows m c t p r hr, w1_blk m c t, w21_blk m c t, w22_blk m c t, w3_blk m c t, w4_blk m c t]
  rfl

/-- Point `t` writes back, to the mean's array, block `t` of the mean head of the argument arrays. -/
theorem flushed_mu (c : Dev nD) (t : Fin cfg0.N) :
    (dats m 0 c).flushed 8 t = ((cfg0.win 8).blk t).view.read (Elt Ideal) (headArr (m ((c : Thread nD τ).loc main_arg0)) (m ((c : Thread nD τ).loc main_arg2)) (m ((c : Thread nD τ).loc main_arg3))) := by
  rw [flushed8]
  unfold out0_8
  rw [View.canon_unit_zero hz]
  simp only [View.ld_unit_zero (S := S5000x8) hz, View.ld_unit_zero (S := S5000x4) hz, View.ld_unit_zero (S := S6x8) hz, View.ld_unit_zero (S := S4x6) hz, View.ld_unit_zero (S := S6x4) hz, View.ld_unit_zero (S := S8x6) hz]
  funext y
  obtain ⟨p, a, rfl⟩ : ∃ (p : Fin 5000) (a : Fin 4), y = ix2 p a := ⟨y 0, y 1, eq_ix2 y⟩
  obtain ⟨r, hr, he⟩ := emb8 t p a
  show k0_pay5 (iblk m c 0 t) (iblk m c 2 t) (iblk m c 3 t) (ix2 p a)
    = headArr (m ((c : Thread nD τ).loc main_arg0)) (m ((c : Thread nD τ).loc main_arg2)) (m ((c : Thread nD τ).loc main_arg3)) (((cfg0.win 8).blk t).view.emb (ix2 p a))
  rw [he]
  refine (head1_apply (iblk m c 0 t) (iblk m c 2 t) (iblk m c 3 t) p a).trans ?_
  rw [x_rows m c t p r hr, w1_blk m c t, w21_blk m c t]
  rfl

/-- Point `t` writes back, to the log-variance's array, block `t` of the log-variance head of the argument arrays. -/
theorem flushed_logvar (c : Dev nD) (t : Fin cfg0.N) :
    (dats m 0 c).flushed 9 t = ((cfg0.win 9).blk t).view.read (Elt Ideal) (headArr (m ((c : Thread nD τ).loc main_arg0)) (m ((c : Thread nD τ).loc main_arg2)) (m ((c : Thread nD τ).loc main_arg4))) := by
  rw [flushed9]
  unfold out0_9
  rw [View.canon_unit_zero hz]
  simp only [View.ld_unit_zero (S := S5000x8) hz, View.ld_unit_zero (S := S5000x4) hz, View.ld_unit_zero (S := S6x8) hz, View.ld_unit_zero (S := S4x6) hz, View.ld_unit_zero (S := S6x4) hz, View.ld_unit_zero (S := S8x6) hz]
  funext y
  obtain ⟨p, a, rfl⟩ : ∃ (p : Fin 5000) (a : Fin 4), y = ix2 p a := ⟨y 0, y 1, eq_ix2 y⟩
  obtain ⟨r, hr, he⟩ := emb9 t p a
  show k0_pay6 (iblk m c 0 t) (iblk m c 2 t) (iblk m c 4 t) (ix2 p a)
    = headArr (m ((c : Thread nD τ).loc main_arg0)) (m ((c : Thread nD τ).loc main_arg2)) (m ((c : Thread nD τ).loc main_arg4)) (((cfg0.win 9).blk t).view.emb (ix2 p a))
  rw [he]
  refine (head2_apply (iblk m c 0 t) (iblk m c 2 t) (iblk m c 4 t) p a).trans ?_
  rw [x_rows m c t p r hr, w1_blk m c t, w22_blk m c t]
  rfl

/-! ## The arrays after the run -/

theorem final_out (c : Dev nD) : (dats m 0 c).arrAt 7 cfg0.N = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_out m c t) cover7

theorem final_mu (c : Dev nD) : (dats m 0 c).arrAt 8 cfg0.N = headArr (m ((c : Thread nD τ).loc main_arg0)) (m ((c : Thread nD τ).loc main_arg2)) (m ((c : Thread nD τ).loc main_arg3)) :=
  (dats m 0 c).arrAt_eq_of_cover 8 (headArr (m ((c : Thread nD τ).loc main_arg0)) (m ((c : Thread nD τ).loc main_arg2)) (m ((c : Thread nD τ).loc main_arg3))) (fun t _ => flushed_mu m c t) cover8

theorem final_logvar (c : Dev nD) : (dats m 0 c).arrAt 9 cfg0.N = headArr (m ((c : Thread nD τ).loc main_arg0)) (m ((c : Thread nD τ).loc main_arg2)) (m ((c : Thread nD τ).loc main_arg4)) :=
  (dats m 0 c).arrAt_eq_of_cover 9 (headArr (m ((c : Thread nD τ).loc main_arg0)) (m ((c : Thread nD τ).loc main_arg2)) (m ((c : Thread nD τ).loc main_arg4))) (fun t _ => flushed_logvar m c t) cover9

/-- THE RUN: every weakly fair execution of the kernel's program terminates with the three result arrays at the row
    arithmetic of the argument arrays, and the arguments unchanged. -/
theorem run : θ_run defs (onTc (τ := τ) (main (F := Ideal))) ⟨m, fun _ => 0, ρ⟩ fun r => ∀ c : Dev nD,
      r.2.mem ((c : Thread nD τ).loc main_v0_0) = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_1) = headArr (m ((c : Thread nD τ).loc main_arg0)) (m ((c : Thread nD τ).loc main_arg2)) (m ((c : Thread nD τ).loc main_arg3))
      ∧ r.2.mem ((c : Thread nD τ).loc main_v0_2) = headArr (m ((c : Thread nD τ).loc main_arg0)) (m ((c : Thread nD τ).loc main_arg2)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_out m c), (h c).2.1.trans (final_mu m c),
      (h c).2.2.1.trans (final_logvar m c), (h c).2.2.2⟩)
    (run_blocks m ρ)

end Cert.KernelIdeal.Arrays

end
-- ==== Proof.RefRun.lean ====
/-
  The reference's run, read back.

  The reference is a straight line of host operations: four matrix products against transposed weights, two
  applications of jax's `elu` (outlined, with its two `where`s, as functions the program calls), one exponential, and
  the products and the sum of the reparameterization. Listed in order, with each call's operations written out at the
  call over that call's own buffers, the program is `seq` of the list; every weakly fair execution of such a line
  terminates with each buffer at the fold of the operations over the launch contents; and that fold, at the three result
  buffers, is the composition stated below stage by stage:

    h1     = elu (x · w1ᵀ)                         [4000000, 6]
    mu     = h1 · w21ᵀ,   logvar = h1 · w22ᵀ       [4000000, 4]
    z      = mu + eps · exp (½ · logvar)           [4000000, 4]
    out    = elu (z · w3ᵀ) · w4ᵀ                   [4000000, 8]

  where jax's `elu v` is `v` where `v > 0` and `1 · expm1 (v where not v > 0, else 0)` elsewhere. Nothing here depends on
  the float instance.
-/
import proofs.«180874_j27891517620820_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages as functions of the arguments' contents -/

/-- jax's `elu` on a [4000000, 6] array, as the host computes it: `v` where `v > 0`; elsewhere the broadcast one times
    `expm1` of the array that is `v` where not `v > 0` and zero where it is. -/
def eluHost (v : FVec F S4000000x6 .f32) : FVec F S4000000x6 .f32 :=
  select (cmpf .ogt v (broadcastInDim S4000000x6 ![] bcast_S_S4000000x6 (constant S_ .f32 0x00000000#32))) v
    (mulf (broadcastInDim S4000000x6 ![] bcast_S_S4000000x6 (constant S_ .f32 0x3F800000#32))
      (Host.expm1
        (select (cmpf .ogt v (broadcastInDim S4000000x6 ![] bcast_S_S4000000x6 (constant S_ .f32 0x00000000#32)))
          (broadcastInDim S4000000x6 ![] bcast_S_S4000000x6 (constant S_ .f32 0x00000000#32)) v)))

/-- The hidden layer of the encoder: `elu (x · w1ᵀ)`. -/
def h1 (x : FVec F S4000000x8 .f32) (w1 : FVec F S6x8 .f32) : FVec F S4000000x6 .f32 :=
  eluHost (Host.dotGeneral dot_S4000000x8_S8x6_S4000000x6_1_0_0_1_n_n none x (transpose S8x6 [1, 0] w1 transposes_S6x8_S8x6_1_0))

/-- One head of the encoder, `h1 · wᵀ` (the mean with `w21`, the log-variance with `w22`). -/
def head (x : FVec F S4000000x8 .f32) (w1 : FVec F S6x8 .f32) (w : FVec F S4x6 .f32) : FVec F S4000000x4 .f32 :=
  Host.dotGeneral dot_S4000000x6_S6x4_S4000000x4_1_0_0_1_n_n none (h1 x w1) (transpose S6x4 [1, 0] w transposes_S4x6_S6x4_1_0)

/-- The latent sample: `mu + eps · exp (½ · logvar)`. -/
def z (x : FVec F S4000000x8 .f32) (eps : FVec F S4000000x4 .f32) (w1 : FVec F S6x8 .f32) (w21 w22 : FVec F S4x6 .f32) :
    FVec F S4000000x4 .f32 :=
  addf (head x w1 w21)
    (mulf eps (Host.exp (mulf (broadcastInDim S4000000x4 ![] bcast_S_S4000000x4 (constant S_ .f32 0x3F000000#32)) (head x w1 w22))))

/-- The decoder: `elu (z · w3ᵀ) · w4ᵀ`. -/
def out (x : FVec F S4000000x8 .f32) (eps : FVec F S4000000x4 .f32) (w1 : FVec F S6x8 .f32) (w21 w22 : FVec F S4x6 .f32)
    (w3 : FVec F S6x4 .f32) (w4 : FVec F S8x6 .f32) : FVec F S4000000x8 .f32 :=
  Host.dotGeneral dot_S4000000x6_S6x8_S4000000x8_1_0_0_1_n_n none
    (eluHost (Host.dotGeneral dot_S4000000x4_S4x6_S4000000x6_1_0_0_1_n_n none (z x eps w1 w21 w22)
      (transpose S4x6 [1, 0] w3 transposes_S6x4_S4x6_1_0)))
    (transpose S6x8 [1, 0] w4 transposes_S8x6_S6x8_1_0)

/-! ## The program as a list of operations -/

/-- @main's operations in order, the calls written out: each `elu` is fifteen operations over its call's buffers (the
    zero and its broadcast and the comparison, twice; the zero again; the inner `where`'s three — the zero at its own
    type, its broadcast, the select —; `expm1`; the one, its broadcast, the product; the outer `where`'s select), between
    @main's own sixteen. -/
abbrev ops : List (HloOp τ sig (Elt F)) :=
  [
    unary main_arg2 main_v0 ((transpose S8x6 [1, 0] · transposes_S6x8_S8x6_1_0) : (⟨S6x8, .f32⟩ : BufTy).Contents (Elt F) → (⟨S8x6, .f32⟩ : BufTy).Contents (Elt F)),
    binary main_arg0 main_v0 main_v1 ((fun l r => Host.dotGeneral dot_S4000000x8_S8x6_S4000000x6_1_0_0_1_n_n none l r) : (⟨S4000000x8, .f32⟩ : BufTy).Contents (Elt F) → (⟨S8x6, .f32⟩ : BufTy).Contents (Elt F) → (⟨S4000000x6, .f32⟩ : BufTy).Contents (Elt F)),
    TRef.nullary main_call0.cst (constant S_ .f32 0x00000000#32),
    TRef.unary main_call0.cst main_call0.v0 (broadcastInDim S4000000x6 ![] bcast_S_S4000000x6),
    TRef.binary (.of main_v1) main_call0.v0 main_call0.v1 (cmpf .ogt),
    TRef.nullary main_call0.cst_0 (constant S_ .f32 0x00000000#32),
    TRef.unary main_call0.cst_0 main_call0.v2 (broadcastInDim S4000000x6 ![] bcast_S_S4000000x6),
    TRef.binary (.of main_v1) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S4000000x6 ![] bcast_S_S4000000x6),
    TRef.ternary main_call0.v3 main_call0.call0.v1 (.of main_v1) main_call0.call0.v2 select,
    TRef.unary main_call0.call0.v2 main_call0.v5 Host.expm1,
    TRef.nullary main_call0.cst_2 (constant S_ .f32 0x3F800000#32),
    TRef.unary main_call0.cst_2 main_call0.v6 (broadcastInDim S4000000x6 ![] bcast_S_S4000000x6),
    TRef.binary main_call0.v6 main_call0.v5 main_call0.v7 mulf,
    TRef.ternary main_call0.v1 (.of main_v1) main_call0.v7 main_call0.call1.v0 select,
    unary main_arg3 main_v3 ((transpose S6x4 [1, 0] · transposes_S4x6_S6x4_1_0) : (⟨S4x6, .f32⟩ : BufTy).Contents (Elt F) → (⟨S6x4, .f32⟩ : BufTy).Contents (Elt F)),
    binary main_v2 main_v3 main_v4 ((fun l r => Host.dotGeneral dot_S4000000x6_S6x4_S4000000x4_1_0_0_1_n_n none l r) : (⟨S4000000x6, .f32⟩ : BufTy).Contents (Elt F) → (⟨S6x4, .f32⟩ : BufTy).Contents (Elt F) → (⟨S4000000x4, .f32⟩ : BufTy).Contents (Elt F)),
    unary main_arg4 main_v5 ((transpose S6x4 [1, 0] · transposes_S4x6_S6x4_1_0) : (⟨S4x6, .f32⟩ : BufTy).Contents (Elt F) → (⟨S6x4, .f32⟩ : BufTy).Contents (Elt F)),
    binary main_v2 main_v5 main_v6 ((fun l r => Host.dotGeneral dot_S4000000x6_S6x4_S4000000x4_1_0_0_1_n_n none l r) : (⟨S4000000x6, .f32⟩ : BufTy).Contents (Elt F) → (⟨S6x4, .f32⟩ : BufTy).Contents (Elt F) → (⟨S4000000x4, .f32⟩ : BufTy).Contents (Elt F)),
    nullary main_cst (constant S_ .f32 0x3F000000#32),
    unary main_cst main_v7 (broadcastInDim S4000000x4 ![] bcast_S_S4000000x4 : (⟨S_, .f32⟩ : BufTy).Contents (Elt F) → (⟨S4000000x4, .f32⟩ : BufTy).Contents (Elt F)),
    binary main_v7 main_v6 main_v8 (mulf : (⟨S4000000x4, .f32⟩ : BufTy).Contents (Elt F) → (⟨S4000000x4, .f32⟩ : BufTy).Contents (Elt F) → (⟨S4000000x4, .f32⟩ : BufTy).Contents (Elt F)),
    unary main_v8 main_v9 (Host.exp : (⟨S4000000x4, .f32⟩ : BufTy).Contents (Elt F) → (⟨S4000000x4, .f32⟩ : BufTy).Contents (Elt F)),
    binary main_arg1 main_v9 main_v10 (mulf : (⟨S4000000x4, .f32⟩ : BufTy).Contents (Elt F) → (⟨S4000000x4, .f32⟩ : BufTy).Contents (Elt F) → (⟨S4000000x4, .f32⟩ : BufTy).Contents (Elt F)),
    binary main_v4 main_v10 main_v11 (addf : (⟨S4000000x4, .f32⟩ : BufTy).Contents (Elt F) → (⟨S4000000x4, .f32⟩ : BufTy).Contents (Elt F) → (⟨S4000000x4, .f32⟩ : BufTy).Contents (Elt F)),
    unary main_arg5 main_v12 ((transpose S4x6 [1, 0] · transposes_S6x4_S4x6_1_0) : (⟨S6x4, .f32⟩ : BufTy).Contents (Elt F) → (⟨S4x6, .f32⟩ : BufTy).Contents (Elt F)),
    binary main_v11 main_v12 main_v13 ((fun l r => Host.dotGeneral dot_S4000000x4_S4x6_S4000000x6_1_0_0_1_n_n none l r) : (⟨S4000000x4, .f32⟩ : BufTy).Contents (Elt F) → (⟨S4x6, .f32⟩ : BufTy).Contents (Elt F) → (⟨S4000000x6, .f32⟩ : BufTy).Contents (Elt F)),
    TRef.nullary main_call1.cst (constant S_ .f32 0x00000000#32),
    TRef.unary main_call1.cst main_call1.v0 (broadcastInDim S4000000x6 ![] bcast_S_S4000000x6),
    TRef.binary (.of main_v13) main_call1.v0 main_call1.v1 (cmpf .ogt),
    TRef.nullary main_call1.cst_0 (constant S_ .f32 0x00000000#32),
    TRef.unary main_call1.cst_0 main_call1.v2 (broadcastInDim S4000000x6 ![] bcast_S_S4000000x6),
    TRef.binary (.of main_v13) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S4000000x6 ![] bcast_S_S4000000x6),
    TRef.ternary main_call1.v3 main_call1.call0.v1 (.of main_v13) main_call1.call0.v2 select,
    TRef.unary main_call1.call0.v2 main_call1.v5 Host.expm1,
    TRef.nullary main_call1.cst_2 (constant S_ .f32 0x3F800000#32),
    TRef.unary main_call1.cst_2 main_call1.v6 (broadcastInDim S4000000x6 ![] bcast_S_S4000000x6),
    TRef.binary main_call1.v6 main_call1.v5 main_call1.v7 mulf,
    TRef.ternary main_call1.v1 (.of main_v13) main_call1.v7 main_call1.call1.v0 select,
    unary main_arg6 main_v15 ((transpose S6x8 [1, 0] · transposes_S8x6_S6x8_1_0) : (⟨S8x6, .f32⟩ : BufTy).Contents (Elt F) → (⟨S6x8, .f32⟩ : BufTy).Contents (Elt F)),
    binary main_v14 main_v15 main_v16 ((fun l r => Host.dotGeneral dot_S4000000x6_S6x8_S4000000x8_1_0_0_1_n_n none l r) : (⟨S4000000x6, .f32⟩ : BufTy).Contents (Elt F) → (⟨S6x8, .f32⟩ : BufTy).Contents (Elt F) → (⟨S4000000x8, .f32⟩ : BufTy).Contents (Elt F)) ]

set_option maxRecDepth 2048 in
/-- @main is that straight line: the functions' bodies unfolded at their calls, sequencing reassociated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub ..⟩

/-- Every weakly fair execution of @main terminates with every buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the fold holds at the results and at the arguments -/

set_option maxRecDepth 8192 in
set_option maxHeartbeats 400000 in
/-- The fold at the first result's buffer is `out` of the arguments' contents: each operation's result decides whether the
    buffer read is the one it writes, and the typed references' transports are the identity at these literal references. -/
theorem out_eq (V : Valuation τ sig (Elt F)) :
    after ops V (main_v16 : DevRef τ sig)
      = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  simp only [after_cons, after_nil]
  rfl

set_option maxRecDepth 8192 in
set_option maxHeartbeats 400000 in
/-- At the second result's buffer: the mean head. -/
theorem mu_eq (V : Valuation τ sig (Elt F)) :
    after ops V (main_v4 : DevRef τ sig) = head (V (main_arg0 : DevRef τ sig)) (V (main_arg2 : DevRef τ sig)) (V (main_arg3 : DevRef τ sig)) := by
  simp only [after_cons, after_nil]
  rfl

set_option maxRecDepth 8192 in
set_option maxHeartbeats 400000 in
/-- At the third result's buffer: the log-variance head. -/
theorem logvar_eq (V : Valuation τ sig (Elt F)) :
    after ops V (main_v6 : DevRef τ sig) = head (V (main_arg0 : DevRef τ sig)) (V (main_arg2 : DevRef τ sig)) (V (main_arg4 : DevRef τ sig)) := by
  simp only [after_cons, after_nil]
  rfl

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl
theorem arg4_eq (V : Valuation τ sig (Elt F)) : after ops V (main_arg4 : DevRef τ sig) = V (main_arg4 : DevRef τ sig) := by
  simp only [after_cons, after_nil]
  rfl
theorem arg5_eq (V : Valuation τ sig (Elt F)) : after ops V (main_arg5 : DevRef τ sig) = V (main_arg5 : DevRef τ sig) := by
  simp only [after_cons, after_nil]
  rfl
theorem arg6_eq (V : Valuation τ sig (Elt F)) : after ops V (main_arg6 : DevRef τ sig) = V (main_arg6 : DevRef τ sig) := by
  simp only [after_cons, after_nil]
  rfl

/-- THE RUN: every weakly fair execution of the reference terminates with the three results at `out`, the mean head and the
    log-variance head of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v4) = head (m ((c.tc : Thread nD τ).loc main_arg0)) (m ((c.tc : Thread nD τ).loc main_arg2)) (m ((c.tc : Thread nD τ).loc main_arg3))
      ∧ r.2.mem ((c.tc : Thread nD τ).loc main_v6) = head (m ((c.tc : Thread nD τ).loc main_arg0)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v16).trans (out_eq _), (h c main_v4).trans (mu_eq _), (h c main_v6).trans (logvar_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _)⟩)
    (run_fold m ρ)

end Cert.ReferenceIdeal.RefRun

end
-- ==== Proof.RefRow.lean ====
/-
  The reference's stages, read at one entry.

  Each stage of Proof/RefRun.lean is a host `dot_general` of rows with a transposed weight, jax's `elu` entry by entry, or
  pointwise arithmetic; read at (r, ·) it is the row arithmetic of Proof/RowSpec.lean on row `r` of the argument arrays
  (jax's spelling of `elu` being the kernel's: `Row.eluJax_eq`). So the three results are the arrays `Row.outArr` and
  `Row.headArr`.
-/
import proofs.«180874_j27891517620820_1_alg».proof.Proof.RefRun
import proofs.«180874_j27891517620820_1_alg».proof.Proof.RowSpec
import proofs.«180874_j27891517620820_1_alg».proof.Proof.LibPlainProduct

noncomputable section

open scoped BigOperators

namespace Cert.ReferenceIdeal.RefRow

open Cert.ReferenceIdeal Cert.ReferenceIdeal.Gen Cert.ReferenceIdeal.RefRun Idealize.ShloMosaic Idealize.ShloMosaic.ValueIdx
  Idealize.ShloMosaic.PlainProduct Cert.Row

/-- The four products' dimension numbers are the plain product's. -/
theorem dims1 : dot_S4000000x8_S8x6_S4000000x6_1_0_0_1_n_n = DotDims.plain 4000000 8 6 := rfl
theorem dims2 : dot_S4000000x6_S6x4_S4000000x4_1_0_0_1_n_n = DotDims.plain 4000000 6 4 := rfl
theorem dims3 : dot_S4000000x4_S4x6_S4000000x6_1_0_0_1_n_n = DotDims.plain 4000000 4 6 := rfl
theorem dims4 : dot_S4000000x6_S6x8_S4000000x8_1_0_0_1_n_n = DotDims.plain 4000000 6 8 := rfl

variable (X : FVec Ideal S4000000x8 .f32) (E : FVec Ideal S4000000x4 .f32) (W1 : FVec Ideal S6x8 .f32) (W21 W22 : FVec Ideal S4x6 .f32)
  (W3 : FVec Ideal S6x4 .f32) (W4 : FVec Ideal S8x6 .f32)

/-- jax's `elu` at an entry is `elu` of the entry. -/
theorem eluHost_apply (v : FVec Ideal S4000000x6 .f32) (i : S4000000x6.Idx) : eluHost v i = elu (v i) :=
  (show eluHost v i = eluJax (v i) from rfl).trans (eluJax_eq (v i))

/-- The hidden layer at (r, j). -/
theorem h1_apply (r : Fin 4000000) (j : Fin 6) :
    h1 X W1 (ix2 r j) = hidden (rowOf (n := 4000000) (w := 8) X r) (matOf (a := 6) (b := 8) W1) j := by
  unfold h1
  rw [eluHost_apply]
  exact congrArg elu (dotGeneral_transposed_apply dot_S4000000x8_S8x6_S4000000x6_1_0_0_1_n_n dims1 none X W1 transposes_S6x8_S8x6_1_0 r j)

/-- A head at (r, a). -/
theorem head_apply (W : FVec Ideal S4x6 .f32) (r : Fin 4000000) (a : Fin 4) :
    head X W1 W (ix2 r a) = headAt (rowOf (n := 4000000) (w := 8) X r) (matOf (a := 6) (b := 8) W1) (matOf (a := 4) (b := 6) W) a := by
  unfold head
  refine (dotGeneral_transposed_apply dot_S4000000x6_S6x4_S4000000x4_1_0_0_1_n_n dims2 none (h1 X W1) W transposes_S4x6_S6x4_1_0 r a).trans ?_
  exact Finset.sum_congr rfl fun j _ => congrArg (· * _) (h1_apply X W1 r j)

/-- The latent sample at (r, a). -/
theorem z_apply (r : Fin 4000000) (a : Fin 4) :
    z X E W1 W21 W22 (ix2 r a)
      = latent (rowOf (n := 4000000) (w := 8) X r) (rowOf (n := 4000000) (w := 4) E r) (matOf (a := 6) (b := 8) W1)
          (matOf (a := 4) (b := 6) W21) (matOf (a := 4) (b := 6) W22) a := by
  show head X W1 W21 (ix2 r a) + E (ix2 r a) * Ideal.exp (halfW * head X W1 W22 (ix2 r a)) = _
  rw [head_apply, head_apply]
  rfl

/-- The output at (r, o). -/
theorem out_apply (r : Fin 4000000) (o : Fin 8) :
    out X E W1 W21 W22 W3 W4 (ix2 r o)
      = decoded (rowOf (n := 4000000) (w := 8) X r) (rowOf (n := 4000000) (w := 4) E r) (matOf (a := 6) (b := 8) W1)
          (matOf (a := 4) (b := 6) W21) (matOf (a := 4) (b := 6) W22) (matOf (a := 6) (b := 4) W3) (matOf (a := 8) (b := 6) W4) o := by
  unfold out
  refine (dotGeneral_transposed_apply dot_S4000000x6_S6x8_S4000000x8_1_0_0_1_n_n dims4 none _ W4 transposes_S8x6_S6x8_1_0 r o).trans ?_
  unfold decoded decode
  refine Finset.sum_congr rfl fun j _ => congrArg (· * _) ?_
  rw [eluHost_apply]
  refine congrArg elu ?_
  refine (dotGeneral_transposed_apply dot_S4000000x4_S4x6_S4000000x6_1_0_0_1_n_n dims3 none (z X E W1 W21 W22) W3 transposes_S6x4_S4x6_1_0 r j).trans ?_
  exact Finset.sum_congr rfl fun a _ => congrArg (· * _) (z_apply X E W1 W21 W22 r a)

/-- THE FIRST RESULT is the output array of the row arithmetic. -/
theorem out_eq_outArr : out X E W1 W21 W22 W3 W4 = outArr X E W1 W21 W22 W3 W4 := by
  funext i
  obtain ⟨r, o, rfl⟩ : ∃ (r : Fin 4000000) (o : Fin 8), i = ix2 r o := ⟨i 0, i 1, eq_ix2 i⟩
  exact out_apply X E W1 W21 W22 W3 W4 r o

/-- THE OTHER TWO RESULTS are the head arrays. -/
theorem head_eq_headArr (W : FVec Ideal S4x6 .f32) : head X W1 W = headArr X W1 W := by
  funext i
  obtain ⟨r, a, rfl⟩ : ∃ (r : Fin 4000000) (a : Fin 4), i = ix2 r a := ⟨i 0, i 1, eq_ix2 i⟩
  exact head_apply X W1 W r a

end Cert.ReferenceIdeal.RefRow

end
-- ==== Proof.lean ====
/-
  The proof of `Cert.Claim`: a small variational auto-encoder applied to 4,000,000 rows, as a Pallas kernel over 800
  blocks of 5000 rows and as plain jax.

  Both programs compute, row by row, `h = elu (x · W1ᵀ)`, `mu = h · W21ᵀ`, `logvar = h · W22ᵀ`,
  `z = mu + eps · exp (½ · logvar)` and `out = elu (z · W3ᵀ) · W4ᵀ`, and return `out`, `mu`, `logvar`. On the extended
  reals the kernel's roundings to bf16 are the identity, each of its matrix products (into a zero accumulator) and each
  of the host's is the plain sum of products over the contracted coordinate, and its `elu`, written
  `where (v > 0, v, exp v − 1)`, is jax's `where (v > 0, v, 1 · expm1 (where (v > 0, 0, v)))`: the two programs are the
  same function of the seven arguments, with no law of arithmetic needed beyond `0 + s = s` and `1 · y = y`, so the
  precondition (finite inputs) is never opened.

  The kernel's side: Proof/KernelRow.lean reads the body's three stored values at an entry of a block, and
  Proof/KernelArrays.lean carries the blocks to the arrays over the generated frame run. The reference's side:
  Proof/RefRun.lean reads the host program's run back as a composition of its operations, Proof/RefRow.lean reads that
  composition at an entry. Proof/RowSpec.lean holds the row arithmetic both sides are read to. The three frames are the
  generated frame runs (the reference's: its run with the results dropped); the idealization rewrote nothing, so
  `preserves` is trivial.
-/
import proofs.«180874_j27891517620820_1_alg».proof.Defs
import proofs.«180874_j27891517620820_1_alg».proof.Proof.Gen.Kernel
import proofs.«180874_j27891517620820_1_alg».proof.Proof.Gen.Kernel.Skeleton
import proofs.«180874_j27891517620820_1_alg».proof.Proof.Gen.Kernel.Launch
import proofs.«180874_j27891517620820_1_alg».proof.Proof.Gen.Kernel.Points
import proofs.«180874_j27891517620820_1_alg».proof.Proof.Gen.Kernel.Frame
import proofs.«180874_j27891517620820_1_alg».proof.Proof.Gen.KernelIdeal
import proofs.«180874_j27891517620820_1_alg».proof.Proof.Gen.KernelIdeal.Skeleton
import proofs.«180874_j27891517620820_1_alg».proof.Proof.Gen.KernelIdeal.Launch
import proofs.«180874_j27891517620820_1_alg».proof.Proof.Gen.KernelIdeal.Points
import proofs.«180874_j27891517620820_1_alg».proof.Proof.Gen.KernelIdeal.Frame
import proofs.«180874_j27891517620820_1_alg».proof.Proof.Gen.KernelIdeal.Value
import proofs.«180874_j27891517620820_1_alg».proof.Proof.Gen.ReferenceIdeal
import proofs.«180874_j27891517620820_1_alg».proof.Proof.Gen.Pre_finite_inputs
import proofs.«180874_j27891517620820_1_alg».proof.Proof.KernelArrays
import proofs.«180874_j27891517620820_1_alg».proof.Proof.RefRow
import Idealize.ShloMosaic.Adequacy
import Idealize.ShloMosaic.Init

noncomputable section

namespace Cert.Proof

open Idealize.ShloMosaic Idealize.ShloMosaic.TcCoe Idealize.SL.Sem Cert.Row

/-- The word-level kernel runs and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run, the results dropped. -/
theorem frame_referenceIdeal : Cert.frame_ReferenceIdeal := fun m ρ _ =>
  (θ_run Cert.ReferenceIdeal.defs _ _).mono (fun _ h c => (h c).2.2.2) (Cert.ReferenceIdeal.RefRun.run (F := Ideal) m ρ)

/-- The idealization rewrote no operation. -/
theorem preserves : Cert.preserves_Kernel_KernelIdeal := trivial

/-- From memories that agree on the arguments both programs end with the three results at the row arithmetic of the
    arguments: the kernel's arrays by the blocks' cover, the reference's by reading its composition at an entry. -/
theorem algebraic : Cert.algebraic_KernelIdeal_ReferenceIdeal := by
  intro m ρ m' ρ' _ hagree
  refine ⟨fun c => outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => headArr (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => headArr (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)),
    Cert.KernelIdeal.Arrays.run m ρ, ?_⟩
  refine (θ_run Cert.ReferenceIdeal.defs _ _).mono (fun _ h c => ?_) (Cert.ReferenceIdeal.RefRun.run (F := Ideal) m' ρ')
  obtain ⟨h0, h1, h2, h3, h4, h5, h6⟩ := hagree c
  refine ⟨(h c).1.trans ?_, (h c).2.1.trans ?_, (h c).2.2.1.trans ?_, (h c).2.2.2⟩
  · rw [h0, h1, h2, h3, h4, h5, h6]
    exact Cert.ReferenceIdeal.RefRow.out_eq_outArr _ _ _ _ _ _ _
  · rw [h0, h2, h3]
    exact Cert.ReferenceIdeal.RefRow.head_eq_headArr _ _ _
  · rw [h0, h2, h4]
    exact Cert.ReferenceIdeal.RefRow.head_eq_headArr _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
